-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512x32 : Shape := ⟨4, ![16, 512, 512, 32]⟩
abbrev S_ : Shape := ⟨0, ![]⟩

class Facts : Prop where
  bcast_S_S16x512x512x32 : S_.BroadcastsInDim S16x512x512x32 (![] : Fin 0 → Fin S16x512x512x32.rank)
  reducesTo_S16x512x512x32_S_d0_1_2_3 : S16x512x512x32.ReducesTo [0, 1, 2, 3] S_
  h_S_ : 0 < S_.numel

variable [Facts]

def fn {F : FTy → Type} [FloatOps F] (main_arg0 : FVec F S16x512x512x32 .f32) : IVec S_ 1 :=
  let main_v0 : FVec F S16x512x512x32 .f32 := Host.absf main_arg0
  let main_cst : FVec F S_ .f32 := constant S_ .f32 0x7F800000#32
  let main_v1 : FVec F S16x512x512x32 .f32 := broadcastInDim S16x512x512x32 ![] bcast_S_S16x512x512x32 main_cst
  let main_v2 : IVec S16x512x512x32 1 := cmpf .olt main_v0 main_v1
  let main_c : IVec S_ 1 := constantI S_ 1 1#1
  let main_v3 : IVec S_ 1 := (fun x v => Host.reduce IntOp.andi x v reducesTo_S16x512x512x32_S_d0_1_2_3 h_S_) main_v2 main_c
  main_v3
-- ==== Kernel.lean ====
abbrev S16x512x512x32 : Shape := ⟨4, ![16, 512, 512, 32]⟩
abbrev S16x512x512 : Shape := ⟨3, ![16, 512, 512]⟩
abbrev S1x32x512x32 : Shape := ⟨4, ![1, 32, 512, 32]⟩
abbrev S1x32x512 : Shape := ⟨3, ![1, 32, 512]⟩
abbrev S32x512x32 : Shape := ⟨3, ![32, 512, 32]⟩
abbrev S32x512 : Shape := ⟨2, ![32, 512]⟩
abbrev S1x512x512 : Shape := ⟨3, ![1, 512, 512]⟩
abbrev S512x512 : Shape := ⟨2, ![512, 512]⟩
abbrev S1x512 : Shape := ⟨2, ![1, 512]⟩
abbrev S511x512 : Shape := ⟨2, ![511, 512]⟩
abbrev S512x1 : Shape := ⟨2, ![512, 1]⟩
abbrev S512x511 : Shape := ⟨2, ![512, 511]⟩
abbrev S2x512 : Shape := ⟨2, ![2, 512]⟩
abbrev S510x512 : Shape := ⟨2, ![510, 512]⟩
abbrev S512x2 : Shape := ⟨2, ![512, 2]⟩
abbrev S512x510 : Shape := ⟨2, ![512, 510]⟩
abbrev S16x512x512x1 : Shape := ⟨4, ![16, 512, 512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x512x512x32, .f32⟩
  | .hbm, ⟨1, _⟩ => ⟨S16x512x512, .f32⟩
  | .hbm, ⟨2, _⟩ => ⟨S16x512x512, .f32⟩
  | .hbm, ⟨3, _⟩ => ⟨S16x512x512x1, .f32⟩
  | .local _ .vmem, ⟨0, _⟩ => ⟨S1x32x512x32, .f32⟩
  | .local _ .vmem, ⟨1, _⟩ => ⟨S1x32x512x32, .f32⟩
  | .local _ .vmem, ⟨2, _⟩ => ⟨S1x32x512, .f32⟩
  | .local _ .vmem, ⟨3, _⟩ => ⟨S1x32x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | _, _ => ⟨S16x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S1x32x512x32_S1x32x512x32_0_0_0_0 : ∀ a, (![0, 0, 0, 0] : Fin 4 → Nat) a + S1x32x512x32.size a ≤ S1x32x512x32.size a
  h_S1x32x512x32 : 0 < S1x32x512x32.numel
  shapeCasts_S1x32x512x32_S32x512x32 : S1x32x512x32.ShapeCasts S32x512x32
  reduces_S32x512x32_S32x512 : S32x512x32.Reduces [2] S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  slices_S512x512_o0_0_S511x512 : S512x512.Slices ![0, 0] S511x512
  concatenates_S1x512_S511x512_S512x512_d0 : Shape.Concatenates [S1x512, S511x512] S512x512 0
  slices_S512x512_o0_0_S512x511 : S512x512.Slices ![0, 0] S512x511
  concatenates_S512x1_S512x511_S512x512_d1 : Shape.Concatenates [S512x1, S512x511] S512x512 1
  slices_S512x512_o0_0_S510x512 : S512x512.Slices ![0, 0] S510x512
  concatenates_S2x512_S510x512_S512x512_d0 : Shape.Concatenates [S2x512, S510x512] S512x512 0
  slices_S512x512_o0_0_S512x510 : S512x512.Slices ![0, 0] S512x510
  concatenates_S512x2_S512x510_S512x512_d1 : Shape.Concatenates [S512x2, S512x510] S512x512 1
  shapeCasts_S512x512_S1x512x512 : S512x512.ShapeCasts S1x512x512
  bcast_S16x512x512_S16x512x512x1_0_1_2 : S16x512x512.BroadcastsInDim S16x512x512x1 (![0, 1, 2] : Fin 3 → Fin S16x512x512x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512x32.size a ≤ S16x512x512x32.size a
  hwx0_0 : ∀ i : grid0.Coords, EltTy.bits .f32 = 32 ∨ (Rect.block (s := S16x512x512x32) S1x32x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S16x512x512.size a
  hwx0_1 : ∀ i : grid0.Coords, EltTy.bits .f32 = 32 ∨ (Rect.block (s := S16x512x512) S1x32x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S16x512x512.size a
  hwx1_0 : ∀ i : grid1.Coords, EltTy.bits .f32 = 32 ∨ (Rect.block (s := S16x512x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S16x512x512.size a
  hwx1_1 : ∀ i : grid1.Coords, EltTy.bits .f32 = 32 ∨ (Rect.block (s := S16x512x512) S1x512x512.size (cc1_transform_1 i) (hinb1_1 i)).WholeWords (EltTy.packing .f32)

variable [Facts₀]

abbrev win0_0 : Pipeline.Window sig grid0 :=
  Pipeline.Window.ofSpec (Memref.whole main_arg0) S1x32x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16x512x512x32 : Shape := ⟨4, ![16, 512, 512, 32]⟩
abbrev S_ : Shape := ⟨0, ![]⟩
abbrev S16x516x516x32 : Shape := ⟨4, ![16, 516, 516, 32]⟩
abbrev S16x516x516 : Shape := ⟨3, ![16, 516, 516]⟩
abbrev S16x1x516 : Shape := ⟨3, ![16, 1, 516]⟩
abbrev S16x515x516 : Shape := ⟨3, ![16, 515, 516]⟩
abbrev S16x516x1 : Shape := ⟨3, ![16, 516, 1]⟩
abbrev S16x516x515 : Shape := ⟨3, ![16, 516, 515]⟩
abbrev S16x2x516 : Shape := ⟨3, ![16, 2, 516]⟩
abbrev S16x514x516 : Shape := ⟨3, ![16, 514, 516]⟩
abbrev S16x516x2 : Shape := ⟨3, ![16, 516, 2]⟩
abbrev S16x516x514 : Shape := ⟨3, ![16, 516, 514]⟩
abbrev S16x512x512 : Shape := ⟨3, ![16, 512, 512]⟩
abbrev S16x512x512x1 : Shape := ⟨4, ![16, 512, 512, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x512x512x32, .f32⟩
  | .hbm, ⟨1, _⟩ => ⟨S_, .i32⟩
  | .hbm, ⟨2, _⟩ => ⟨S_, .f32⟩
  | .hbm, ⟨3, _⟩ => ⟨S16x516x516x32, .f32⟩
  | .hbm, ⟨4, _⟩ => ⟨S_, .f32⟩
  | .hbm, ⟨5, _⟩ => ⟨S16x516x516, .f32⟩
  | .hbm, ⟨6, _⟩ => ⟨S16x1x516, .f32⟩
  | .hbm, ⟨7, _⟩ => ⟨S16x515x516, .f32⟩
  | .hbm, ⟨8, _⟩ => ⟨S16x516x516, .f32⟩
  | .hbm, ⟨9, _⟩ => ⟨S16x516x1, .f32⟩
  | .hbm, ⟨10, _⟩ => ⟨S16x516x515, .f32⟩
  | .hbm, ⟨11, _⟩ => ⟨S16x516x516, .f32⟩
  | .hbm, ⟨12, _⟩ => ⟨S16x516x1, .f32⟩
  | .hbm, ⟨13, _⟩ => ⟨S16x516x515, .f32⟩
  | .hbm, ⟨14, _⟩ => ⟨S16x516x516, .f32⟩
  | .hbm, ⟨15, _⟩ => ⟨S16x516x516, .f32⟩
  | .hbm, ⟨16, _⟩ => ⟨S16x516x516, .f32⟩
  | .hbm, ⟨17, _⟩ => ⟨S16x516x516, .f32⟩
  | .hbm, ⟨18, _⟩ => ⟨S16x2x516, .f32⟩
  | .hbm, ⟨19, _⟩ => ⟨S16x514x516, .f32⟩
  | .hbm, ⟨20, _⟩ => ⟨S16x516x516, .f32⟩
  | .hbm, ⟨21, _⟩ => ⟨S16x516x2, .f32⟩
  | .hbm, ⟨22, _⟩ => ⟨S16x516x514, .f32⟩
  | .hbm, ⟨23, _⟩ => ⟨S16x516x516, .f32⟩
  | .hbm, ⟨24, _⟩ => ⟨S16x516x2, .f32⟩
  | .hbm, ⟨25, _⟩ => ⟨S16x516x514, .f32⟩
  | .hbm, ⟨26, _⟩ => ⟨S16x516x516, .f32⟩
  | .hbm, ⟨27, _⟩ => ⟨S16x516x516, .f32⟩
  | .hbm, ⟨28, _⟩ => ⟨S16x516x516, .f32⟩
  | .hbm, ⟨29, _⟩ => ⟨S16x516x516, .f32⟩
  | .hbm, ⟨30, _⟩ => ⟨S16x512x512, .f32⟩
  | .hbm, ⟨31, _⟩ => ⟨S16x512x512x1, .f32⟩
  | _, _ => ⟨S16x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call1_v0 : Ref sig .tc := ⟨.hbm, 6, rfl⟩
abbrev main_call1_v1 : Ref sig .tc := ⟨.hbm, 7, rfl⟩
abbrev main_v2 : Ref sig .tc := ⟨.hbm, 8, rfl⟩
abbrev main_call2_v0 : Ref sig .tc := ⟨.hbm, 9, rfl⟩
abbrev main_call2_v1 : Ref sig .tc := ⟨.hbm, 10, rfl⟩
abbrev main_v3 : Ref sig .tc := ⟨.hbm, 11, rfl⟩
abbrev main_call3_v0 : Ref sig .tc := ⟨.hbm, 12, rfl⟩
abbrev main_call3_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call4_v0 : Ref sig .tc := ⟨.hbm, 18, rfl⟩
abbrev main_call4_v1 : Ref sig .tc := ⟨.hbm, 19, rfl⟩
abbrev main_v8 : Ref sig .tc := ⟨.hbm, 20, rfl⟩
abbrev main_call5_v0 : Ref sig .tc := ⟨.hbm, 21, rfl⟩
abbrev main_call5_v1 : Ref sig .tc := ⟨.hbm, 22, rfl⟩
abbrev main_v9 : Ref sig .tc := ⟨.hbm, 23, rfl⟩
abbrev main_call6_v0 : Ref sig .tc := ⟨.hbm, 24, rfl⟩
abbrev main_call6_v1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩

abbrev nD : Nat := 1
abbrev τ : Topo := Topo.v7x

variable {F : FTy → Type} [FloatOps F]

class Facts₀ : Prop where
  pads_S16x512x512x32_S16x516x516x32_000_220_220_000 : S16x512x512x32.Pads (![0, 2, 2, 0] : Fin 4 → Nat) ![0, 2, 2, 0] ![0, 0, 0, 0] S16x516x516x32
  h_S_ : 0 < S_.numel
  reducesTo_S16x516x516x32_S16x516x516_d3 : S16x516x516x32.ReducesTo [3] S16x516x516
  slices_S16x516x516_S16x1x516_0_515_0 : S16x516x516.Slices ![0, 515, 0] S16x1x516
  slices_S16x516x516_S16x515x516_0_0_0 : S16x516x516.Slices ![0, 0, 0] S16x515x516
  concatenates_S16x1x516_S16x515x516_S16x516x516_d1 : Shape.Concatenates [S16x1x516, S16x515x516] S16x516x516 1
  slices_S16x516x516_S16x516x1_0_0_515 : S16x516x516.Slices ![0, 0, 515] S16x516x1
  slices_S16x516x516_S16x516x515_0_0_0 : S16x516x516.Slices ![0, 0, 0] S16x516x515
  concatenates_S16x516x1_S16x516x515_S16x516x516_d2 : Shape.Concatenates [S16x516x1, S16x516x515] S16x516x516 2
  slices_S16x516x516_S16x2x516_0_514_0 : S16x516x516.Slices ![0, 514, 0] S16x2x516
  slices_S16x516x516_S16x514x516_0_0_0 : S16x516x516.Slices ![0, 0, 0] S16x514x516
  concatenates_S16x2x516_S16x514x516_S16x516x516_d1 : Shape.Concatenates [S16x2x516, S16x514x516] S16x516x516 1
  slices_S16x516x516_S16x516x2_0_0_514 : S16x516x516.Slices ![0, 0, 514] S16x516x2
  slices_S16x516x516_S16x516x514_0_0_0 : S16x516x516.Slices ![0, 0, 0] S16x516x514
  concatenates_S16x516x2_S16x516x514_S16x516x516_d2 : Shape.Concatenates [S16x516x2, S16x516x514] S16x516x516 2
  slices_S16x516x516_S16x512x512_0_2_2 : S16x516x516.Slices ![0, 2, 2] S16x512x512
  bcast_S16x512x512_S16x512x512x1_0_1_2 : S16x512x512.BroadcastsInDim S16x512x512x1 (![0, 1, 2] : Fin 3 → Fin S16x512x512x1.rank)

variable [Facts₀]

class Facts : Prop extends Facts₀ where

variable [Facts]
-- ==== Proof.KernelRun.lean ====
/-
  The idealized kernel's run with its result named.

  @main is two pipelined regions and one host line: region 0 writes the channel maximum of the argument into the first
  intermediate array, region 1 reads that array and writes the second intermediate array, and the host line copies the second
  array into the result with a trailing axis of extent 1. Every weakly fair execution terminates without a fault; in
  every final state the result buffer holds the contents `W3` that the run's fold through the three segments gives it,
  and the argument is as launched (`run_named`).

  Then the fold is read back one segment at a time (`result_eq`): the host line's result is the broadcast of region 1's
  output array after its last grid point, whose input array is region 0's output array after its last grid point,
  whose input array is the argument.
-/
import proofs.«116441_j34720515620930_2_alg».proof.Proof.Gen.KernelIdeal.Frame
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the fold
    through the segments gives it and the argument as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
        (h c _ (mem_uc main_arg0 (by decide))).trans (W3_main_arg0 m ρ c)⟩)

/-- The result buffer after the run, read back through the three segments: the host line's broadcast of region 1's
    output array after its last point. -/
theorem result_eq (c : Dev nD) :
    (W3 m ρ c (Proc.devRef .tc main_v2) : S16x512x512x1.Idx → Elt F .f32)
      = broadcastInDim S16x512x512x1 ![0, 1, 2] bcast_S16x512x512_S16x512x512x1_0_1_2
          ((dat1 (V1 m ρ) c).arrAt 1 cfg1.N) := by
  show StableHlo.after hostOps2 (W2 m ρ c) (Proc.devRef .tc main_v2) = _
  after_results
  exact congrArg _ (W2_arr m ρ c 1)

/-- Region 1's input array is region 0's output array after region 0's last point. -/
theorem mid_eq (c : Dev nD) :
    (V1 m ρ c main_v0 : S16x512x512.Idx → Elt F .f32) = (dat0 (V0 m ρ) c).arrAt 1 cfg0.N :=
  W1_arr m ρ c 1

/-- Region 0's input array is the argument as launched. -/
theorem arg_eq (c : Dev nD) :
    (V0 m ρ c main_arg0 : S16x512x512x32.Idx → Elt F .f32) = m ((c.tc : Thread nD τ).loc main_arg0) := rfl

end Cert.KernelIdeal.Named

end
-- ==== Proof.PlaneMax.lean ====
/-
  What both programs compute, stated once over plain index types.

  The input is a batch of 16 images of 512 x 512 positions with 32 channels. First every position keeps the largest of
  its 32 channel entries (`chanMax`; the maximum starts from the bottom element, so an empty maximum would be -infinity).
  Then every position of a plane takes the largest of seven values of that plane: its own, and the ones 1 or 2 rows
  up, 1 or 2 columns to the left, and 1 or 2 steps up the diagonal; a position whose shifted neighbour falls off the
  plane takes the value zero for it (`back`). The seven values are joined by `max` in one fixed nesting (`pool`): both
  programs nest them the same way, so no law of `max` beyond its definition is used to join the two sides.

  Also here: the two one-axis shifts a plane goes through one after the other are the two-axis `back` (`down_right`),
  and the maximum of 32 equal entries from the bottom element is that entry (`fold_max_const`: what the maximum
  over the channels of a zero-padded position is).
-/
import Idealize.ShloMosaic.PureOps.Ideal
import Idealize.ShloMosaic.PureOps.Ideal.Laws
import Idealize.ShloMosaic.Lib.ValueIdx

noncomputable section

namespace Cert.PlaneMax

open Idealize.ShloMosaic Idealize.ShloMosaic.ValueIdx

/-- The largest of the 32 channel entries at each position. -/
def chanMax (x : (⟨4, ![16, 512, 512, 32]⟩ : Shape).Idx → EReal) : (⟨3, ![16, 512, 512]⟩ : Shape).Idx → EReal :=
  fun j => (Finset.univ : Finset (Fin 32)).fold max ⊥ fun k => x (ix4 (j 0) (j 1) (j 2) k)

section Shifts
variable {α : Type} (z : α)

/-- A plane read `dh` rows up and `dw` columns to the left; `z` where that position is off the plane. -/
def back (f : Fin 512 → Fin 512 → α) (dh dw : Nat) (h w : Fin 512) : α :=
  if _hh : dh ≤ h.val then
    if _hw : dw ≤ w.val then f ⟨h.val - dh, Nat.lt_of_le_of_lt (Nat.sub_le _ _) h.isLt⟩ ⟨w.val - dw, Nat.lt_of_le_of_lt (Nat.sub_le _ _) w.isLt⟩
    else z
  else z

/-- A plane moved `d` rows down, `z` in the rows that come in at the top. -/
def down (d : Nat) (f : Fin 512 → Fin 512 → α) (h w : Fin 512) : α :=
  if _hh : d ≤ h.val then f ⟨h.val - d, Nat.lt_of_le_of_lt (Nat.sub_le _ _) h.isLt⟩ w else z

/-- A plane moved `d` columns to the right, `z` in the columns that come in at the left. -/
def right (d : Nat) (f : Fin 512 → Fin 512 → α) (h w : Fin 512) : α :=
  if _hw : d ≤ w.val then f h ⟨w.val - d, Nat.lt_of_le_of_lt (Nat.sub_le _ _) w.isLt⟩ else z

theorem down_eq_back (d : Nat) (f : Fin 512 → Fin 512 → α) (h w : Fin 512) : down z d f h w = back z f d 0 h w := by
  unfold down back
  by_cases hh : d ≤ h.val
  · rw [dif_pos hh, dif_pos hh, dif_pos (Nat.zero_le _)]; rfl
  · rw [dif_neg hh, dif_neg hh]

theorem right_eq_back (d : Nat) (f : Fin 512 → Fin 512 → α) (h w : Fin 512) : right z d f h w = back z f 0 d h w := by
  unfold right back
  by_cases hw : d ≤ w.val
  · rw [dif_pos hw, dif_pos (Nat.zero_le _), dif_pos hw]; rfl
  · rw [dif_neg hw, dif_pos (Nat.zero_le _), dif_neg hw]

/-- Down by `a` rows and then right by `b` columns is the diagonal read. -/
theorem right_down (a b : Nat) (f : Fin 512 → Fin 512 → α) (h w : Fin 512) :
    right z b (down z a f) h w = back z f a b h w := by
  unfold right down back
  by_cases hw : b ≤ w.val
  · by_cases hh : a ≤ h.val
    · rw [dif_pos hw, dif_pos hh, dif_pos hh, dif_pos hw]
    · rw [dif_pos hw, dif_neg hh, dif_neg hh]
  · by_cases hh : a ≤ h.val
    · rw [dif_neg hw, dif_pos hh, dif_neg hw]
    · rw [dif_neg hw, dif_neg hh]

end Shifts

/-- The largest of the seven backward reads, in the nesting both programs use. -/
def pool (f : Fin 512 → Fin 512 → EReal) (h w : Fin 512) : EReal :=
  max (max (max (max (f h w) (back 0 f 1 0 h w)) (max (back 0 f 0 1 h w) (back 0 f 1 1 h w))) (back 0 f 2 0 h w))
    (max (back 0 f 0 2 h w) (back 0 f 2 2 h w))

/-- `pool` of every plane of a batch. -/
def poolPlanes (a : (⟨3, ![16, 512, 512]⟩ : Shape).Idx → EReal) : (⟨3, ![16, 512, 512]⟩ : Shape).Idx → EReal :=
  fun j => pool (fun p q => a (ix3 (j 0) p q)) (j 1) (j 2)

/-- The maximum of 32 copies of one value, from the bottom element, is that value. -/
theorem fold_max_const (z : EReal) : ((Finset.univ : Finset (Fin 32)).fold max ⊥ fun _ => z) = z := by
  rw [Finset.fold_const z (by simp), if_neg (Finset.univ_nonempty.ne_empty)]
  simp

end Cert.PlaneMax

end
-- ==== Proof.ChanRegion.lean ====
/-
  Region 0 of the idealized kernel: the channel maximum.

  The grid is 16 x 16: point (b, r) stages rows 32 r … 32 r + 31 of image b with all 32 channels (a block [1, 32, 512, 32]
  of the input array) and writes the block [1, 32, 512] of the output array at the same image and rows. The body drops the
  leading unit axis, takes the maximum over the channel axis from -infinity, and puts the unit axis back: at a position of
  the block that is the maximum of the 32 channel entries of the input block at that position (`stored_apply`).

  The input block is the input array read through the same image and rows, so what point (b, r) writes back is its block
  of ONE whole-array function of the region's input array, `PlaneMax.chanMax` (`written_eq`); the 256 blocks cover the
  output array (`covered`); hence after the last point the output array is `chanMax` of the input array (`array_eq`).
  All of it is stated for any contents `V` of the buffers at the region's entry.
-/
import proofs.«116441_j34720515620930_2_alg».proof.Proof.Gen.KernelIdeal.Frame
import proofs.«116441_j34720515620930_2_alg».proof.Proof.PlaneMax
import Idealize.ShloMosaic.Lib.Pipeline.Value
import Idealize.ShloMosaic.Lib.ValueIdx
import Idealize.ShloMosaic.PureOps.Ideal.Laws

set_option maxRecDepth 16384

noncomputable section

namespace Cert.KernelIdeal.ChanRegion

open Cert.KernelIdeal Cert.KernelIdeal.Gen Cert.PlaneMax
open Idealize.ShloMosaic Idealize.ShloMosaic.TcCoe Idealize.ShloMosaic.ValueIdx Idealize.SL.Sem
open Idealize.ShloMosaic.Pipeline (Dat)

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- The value the maximum over the channels starts from is the bottom element. -/
theorem neg_inf : FloatOps.ofBits (F := Ideal) .f32 0xFF800000#32 = (⊥ : EReal) := by
  show Ideal.ofBits .f32 0xFF800000#32 = ⊥
  simp [Ideal.ofBits, Ideal.ieee]

/-- What the body stores, at a position of the output block: the maximum of the 32 channel entries of the input block at
    that position. -/
theorem stored_apply (x0 : Vec Ideal S1x32x512x32 .f32) (y : S1x32x512.Idx) :
    k0_pay1 (F := Ideal) x0 y = (Finset.univ : Finset (Fin 32)).fold max ⊥ fun k => x0 (ix4 (y 0) (y 1) (y 2) k) := by
  unfold k0_pay1
  refine (shapeCast_addUnit_apply (n := 2) ![32, 512] _ _ y).trans ?_
  refine (Ideal.multiReduction_maximumf_single _ _ reduces_S32x512x32_S32x512 _ _ _).trans ?_
  rw [neg_inf]
  refine congrArg (fun g => (Finset.univ : Finset (Fin 32)).fold max ⊥ g) (funext fun k => ?_)
  show shapeCast S32x512x32 x0 shapeCasts_S1x32x512x32_S32x512x32 (reduces_S32x512x32_S32x512.lift (fun a => y a.succ) k) = _
  refine (shapeCast_dropUnit_apply (n := 3) ![32, 512, 32] x0 _ _).trans ?_
  refine congrArg x0 (funext fun a => Fin.ext ?_)
  match a with
  | ⟨0, _⟩ => show (0 : Nat) = (y 0).val; have h0 : (y 0).val < 1 := (y 0).isLt; omega
  | ⟨1, _⟩ => rfl
  | ⟨2, _⟩ => rfl
  | ⟨3, _⟩ => rfl

variable (V : (c : Dev nD) → (b : Ref sig .tc) → Buf (Elt Ideal) ((c : Thread nD τ).loc b))

/-- The printed index maps over the grid: the input block and the output block sit at the same image and rows, and
    at block 0 of every other axis. -/
theorem index_facts : ∀ t : Fin cfg0.N, win0_0.index t (0 : Fin 4) = win0_1.index t (0 : Fin 3)
    ∧ win0_0.index t (1 : Fin 4) = win0_1.index t (1 : Fin 3)
    ∧ win0_0.index t (2 : Fin 4) = 0 ∧ win0_0.index t (3 : Fin 4) = 0 ∧ win0_1.index t (2 : Fin 3) = 0 :=
  (by decide +kernel : ∀ t : Fin grid0.N, _)

/-- Every (image, block of 32 rows) is some grid point's. -/
theorem index_onto : ∀ (q0 : Fin 16) (q1 : Fin 16), ∃ t : Fin cfg0.N, win0_1.index t = ![q0.val, q1.val, 0] :=
  (by decide +kernel : ∀ (q0 : Fin 16) (q1 : Fin 16), ∃ t : Fin grid0.N, win0_1.index t = ![q0.val, q1.val, 0])

/-- What point `t` writes back is block `t` of the channel maximum of the region's input array. -/
theorem written_eq (c : Dev nD) (t : Fin cfg0.N) :
    (dat0 V c).flushed 1 t = ((cfg0.win 1).blk t).view.read (Elt Ideal) (chanMax (V c main_arg0)) := by
  show (cfg0.win 1).cut (grid0.coords t) ((dat0 V c).after 1 t) = _
  rw [after0_1]
  unfold out0_1
  rw [View.canon_unit_zero zero3]
  simp only [View.ld_unit_zero (S := S1x32x512x32) zero4]
  obtain ⟨e0, e1, e2, e3, e4⟩ := index_facts t
  funext y
  show k0_pay1 (F := Ideal) (iblk0 V c 0 t) y = chanMax (V c main_arg0) (((cfg0.win 1).blk t).view.emb y)
  refine (stored_apply _ y).trans ?_
  unfold chanMax
  refine congrArg (fun g => (Finset.univ : Finset (Fin 32)).fold max ⊥ g) (funext fun k => ?_)
  show V c main_arg0 (((cfg0.win 0).blk t).view.emb (ix4 (y 0) (y 1) (y 2) k)) = V c main_arg0 _
  refine congrArg _ (funext fun a => Fin.ext ?_)
  match a with
  | ⟨0, _⟩ => show win0_0.index t (0 : Fin 4) * 1 + 1 * (y 0).val = win0_1.index t (0 : Fin 3) * 1 + 1 * (y 0).val; omega
  | ⟨1, _⟩ => show win0_0.index t (1 : Fin 4) * 32 + 1 * (y 1).val = win0_1.index t (1 : Fin 3) * 32 + 1 * (y 1).val; omega
  | ⟨2, _⟩ => show win0_0.index t (2 : Fin 4) * 512 + 1 * (y 2).val = win0_1.index t (2 : Fin 3) * 512 + 1 * (y 2).val; omega
  | ⟨3, _⟩ => show win0_0.index t (3 : Fin 4) * 32 + 1 * k.val = k.val; omega

/-- A position of the output array is in point `t`'s block iff each coordinate is in the block's range on its axis. -/
theorem mem_block (t : Fin cfg0.N) (i : S16x512x512.Idx) :
    i ∈ ((cfg0.win 1).blk t).view.set ↔ ∀ a : Fin 3, win0_1.index t a * S1x32x512.size a ≤ (i a).val
      ∧ (i a).val < win0_1.index t a * S1x32x512.size a + S1x32x512.size a := by
  show i ∈ ((View.whole main_v0).slice (win0_1.rect t)).set ↔ _
  rw [View.set_slice_whole, Rect.mem_set_unit]
  exact Iff.rfl

/-- The 256 written-back blocks cover the output array: position (b, h, w) is in the block of point (b, h / 32). -/
theorem covered (i : S16x512x512.Idx) :
    ∃ t : Fin cfg0.N, (cfg0.win 1).flush t = true ∧ i ∈ ((cfg0.win 1).blk t).view.set := by
  have hi0 : (i 0).val < 16 := (i 0).isLt
  have hi1 : (i 1).val < 512 := (i 1).isLt
  have hi2 : (i 2).val < 512 := (i 2).isLt
  obtain ⟨t, ht⟩ := index_onto ⟨(i 0).val, hi0⟩ ⟨(i 1).val / 32, by omega⟩
  have q0 : win0_1.index t (0 : Fin 3) = (i 0).val := congrFun ht 0
  have q1 : win0_1.index t (1 : Fin 3) = (i 1).val / 32 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 32 ≤ (i 1).val ∧ (i 1).val < win0_1.index t (1 : Fin 3) * 32 + 32; omega
  | ⟨2, _⟩ => show win0_1.index t (2 : Fin 3) * 512 ≤ (i 2).val ∧ (i 2).val < win0_1.index t (2 : Fin 3) * 512 + 512; omega

/-- After the last grid point the output array is the channel maximum of the region's input array. -/
theorem array_eq (c : Dev nD) : (dat0 V c).arrAt 1 cfg0.N = chanMax (V c main_arg0) :=
  (dat0 V c).arrAt_eq_of_cover 1 (chanMax (V c main_arg0)) (fun t _ => written_eq V c t) covered

end Cert.KernelIdeal.ChanRegion

end
-- ==== Proof.ConcatRead.lean ====
/-
  The two ways the programs move a plane, read at one position.

  The kernel moves a 512 x 512 plane `d` rows down (or `d` columns right) by joining `d` rows (columns) of a constant in
  front of the plane's first `512 - d` rows (columns): at a position this is `PlaneMax.down` (`PlaneMax.right`) of
  the plane (`rows_joined_apply`, `cols_joined_apply`).

  The reference rolls a batch of 516 x 516 planes by `d` along the rows (columns): the last `d` rows (columns)
  joined in front of the first `516 - d`. At a position whose row (column) is at least `d` the rolled array holds the
  entry `d` rows up (columns left); the wrapped part is never read there (`rolled_rows_apply`, `rolled_cols_apply`).
-/
import proofs.«116441_j34720515620930_2_alg».proof.Proof.PlaneMax
import Idealize.ShloMosaic.Lib.Pipeline.Value

noncomputable section

namespace Cert.PlaneMax

open Idealize.ShloMosaic Idealize.ShloMosaic.ValueIdx

variable {α : Type}

/-- `d` rows of `z` joined above the first `n` rows of a plane (`d + n = 512`): the plane moved `d` rows down. -/
theorem rows_joined_apply (d n : Nat) (hdn : d + n = 512) (z : α) (y : (⟨2, ![512, 512]⟩ : Shape).Idx → α)
    (hs : (⟨2, ![512, 512]⟩ : Shape).Slices ![0, 0] ⟨2, ![n, 512]⟩)
    (hc : Shape.Concatenates [(⟨2, ![d, 512]⟩ : Shape), ⟨2, ![n, 512]⟩] ⟨2, ![512, 512]⟩ 0) (h w : Fin 512) :
    concatenate ⟨2, ![512, 512]⟩ 0 [⟨⟨2, ![d, 512]⟩, broadcast ⟨2, ![d, 512]⟩ z⟩,
        ⟨⟨2, ![n, 512]⟩, extractStridedSlice ⟨2, ![n, 512]⟩ ![0, 0] y hs⟩] hc (ix2 h w)
      = down z d (fun p q => y (ix2 p q)) h w := by
  unfold down
  by_cases hh : d ≤ h.val
  · rw [dif_pos hh]
    have hn : h.val - d < n := by have := h.isLt; omega
    rw [concatenate_pair_apply_right (s₁ := ⟨2, ![d, 512]⟩) (s₂ := ⟨2, ![n, 512]⟩) (0 : Fin 2) _ _ hc (ix2 h w) rfl rfl (ix2 (n0 := n) ⟨h.val - d, hn⟩ w)
      (fun b hb => by match b with | ⟨0, _⟩ => exact absurd rfl hb | ⟨1, _⟩ => rfl)
      (by show (h.val - d) + d = h.val; omega)]
    exact extractStridedSlice_apply _ y hs _ _ (fun a => by
      match a with
      | ⟨0, _⟩ => show h.val - d = 0 + (h.val - d); omega
      | ⟨1, _⟩ => show w.val = 0 + w.val; omega)
  · rw [dif_neg hh]
    have hd : h.val < d := by omega
    exact concatenate_pair_apply_left (s₁ := ⟨2, ![d, 512]⟩) (s₂ := ⟨2, ![n, 512]⟩) (0 : Fin 2) _ _ hc (ix2 h w) rfl (ix2 (n0 := d) ⟨h.val, hd⟩ w)
      (fun b => by match b with | ⟨0, _⟩ => rfl | ⟨1, _⟩ => rfl)

/-- `d` columns of `z` joined left of the first `n` columns of a plane (`d + n = 512`): the plane moved `d` columns right. -/
theorem cols_joined_apply (d n : Nat) (hdn : d + n = 512) (z : α) (y : (⟨2, ![512, 512]⟩ : Shape).Idx → α)
    (hs : (⟨2, ![512, 512]⟩ : Shape).Slices ![0, 0] ⟨2, ![512, n]⟩)
    (hc : Shape.Concatenates [(⟨2, ![512, d]⟩ : Shape), ⟨2, ![512, n]⟩] ⟨2, ![512, 512]⟩ 1) (h w : Fin 512) :
    concatenate ⟨2, ![512, 512]⟩ 1 [⟨⟨2, ![512, d]⟩, broadcast ⟨2, ![512, d]⟩ z⟩,
        ⟨⟨2, ![512, n]⟩, extractStridedSlice ⟨2, ![512, n]⟩ ![0, 0] y hs⟩] hc (ix2 h w)
      = right z d (fun p q => y (ix2 p q)) h w := by
  unfold right
  by_cases hw : d ≤ w.val
  · rw [dif_pos hw]
    have hn : w.val - d < n := by have := w.isLt; omega
    rw [concatenate_pair_apply_right (s₁ := ⟨2, ![512, d]⟩) (s₂ := ⟨2, ![512, n]⟩) (1 : Fin 2) _ _ hc (ix2 h w) rfl rfl (ix2 (n1 := n) h ⟨w.val - d, hn⟩)
      (fun b hb => by match b with | ⟨0, _⟩ => rfl | ⟨1, _⟩ => exact absurd rfl hb)
      (by show (w.val - d) + d = w.val; omega)]
    exact extractStridedSlice_apply _ y hs _ _ (fun a => by
      match a with
      | ⟨0, _⟩ => show h.val = 0 + h.val; omega
      | ⟨1, _⟩ => show w.val - d = 0 + (w.val - d); omega)
  · rw [dif_neg hw]
    have hd : w.val < d := by omega
    exact concatenate_pair_apply_left (s₁ := ⟨2, ![512, d]⟩) (s₂ := ⟨2, ![512, n]⟩) (1 : Fin 2) _ _ hc (ix2 h w) rfl (ix2 (n1 := d) h ⟨w.val, hd⟩)
      (fun b => by match b with | ⟨0, _⟩ => rfl | ⟨1, _⟩ => rfl)

/-- Two pieces joined along the rows of a batch of 516 x 516 planes, read at a row past the first piece: the second
    piece, the first piece's `d` rows up. -/
theorem rolled_rows_apply (d n : Nat) (hdn : d + n = 516) (x₁ : (⟨3, ![16, d, 516]⟩ : Shape).Idx → α)
    (x₂ : (⟨3, ![16, n, 516]⟩ : Shape).Idx → α)
    (hc : Shape.Concatenates [(⟨3, ![16, d, 516]⟩ : Shape), ⟨3, ![16, n, 516]⟩] ⟨3, ![16, 516, 516]⟩ 1)
    (b : Fin 16) (p q : Fin 516) (hp : d ≤ p.val) :
    concatenate ⟨3, ![16, 516, 516]⟩ 1 [⟨⟨3, ![16, d, 516]⟩, x₁⟩, ⟨⟨3, ![16, n, 516]⟩, x₂⟩] hc (ix3 b p q)
      = x₂ (ix3 b ⟨p.val - d, by have := p.isLt; omega⟩ q) :=
  concatenate_pair_apply_right (s₁ := ⟨3, ![16, d, 516]⟩) (s₂ := ⟨3, ![16, n, 516]⟩) (1 : Fin 3) x₁ x₂ hc (ix3 b p q) rfl rfl
    (ix3 (n1 := n) b ⟨p.val - d, by have := p.isLt; omega⟩ q)
    (fun a ha => by match a with | ⟨0, _⟩ => rfl | ⟨1, _⟩ => exact absurd rfl ha | ⟨2, _⟩ => rfl)
    (by show (p.val - d) + d = p.val; omega)

/-- The same along the columns. -/
theorem rolled_cols_apply (d n : Nat) (hdn : d + n = 516) (x₁ : (⟨3, ![16, 516, d]⟩ : Shape).Idx → α)
    (x₂ : (⟨3, ![16, 516, n]⟩ : Shape).Idx → α)
    (hc : Shape.Concatenates [(⟨3, ![16, 516, d]⟩ : Shape), ⟨3, ![16, 516, n]⟩] ⟨3, ![16, 516, 516]⟩ 2)
    (b : Fin 16) (p q : Fin 516) (hq : d ≤ q.val) :
    concatenate ⟨3, ![16, 516, 516]⟩ 2 [⟨⟨3, ![16, 516, d]⟩, x₁⟩, ⟨⟨3, ![16, 516, n]⟩, x₂⟩] hc (ix3 b p q)
      = x₂ (ix3 b p ⟨q.val - d, by have := q.isLt; omega⟩) :=
  concatenate_pair_apply_right (s₁ := ⟨3, ![16, 516, d]⟩) (s₂ := ⟨3, ![16, 516, n]⟩) (2 : Fin 3) x₁ x₂ hc (ix3 b p q) rfl rfl
    (ix3 (n2 := n) b p ⟨q.val - d, by have := q.isLt; omega⟩)
    (fun a ha => by match a with | ⟨0, _⟩ => rfl | ⟨1, _⟩ => rfl | ⟨2, _⟩ => exact absurd rfl ha)
    (by show (q.val - d) + d = q.val; omega)

end Cert.PlaneMax

end
-- ==== Proof.StencilRegion.lean ====
/-
  Region 1 of the idealized kernel: the running maximum over the backward shifts.

  The grid has 16 points: point b stages the whole 512 x 512 plane of image b (a block [1, 512, 512]) and writes the plane of
  the same image of the output array. The body drops the unit axis; moves the plane 1 (then 2) rows down, columns right, and
  both — each move a strip of zeros joined in front of a slice of the plane, the diagonal move the column move of the row
  move —; joins the plane and its six moved copies by `max` in a fixed nesting; and puts the unit axis back. At a position
  that is `PlaneMax.pool` of the input plane (`stored_apply`).

  So what point b writes back is its block of `PlaneMax.poolPlanes` of the region's input array (`written_eq`), the 16
  blocks cover the output array (`covered`), and after the last point the output array is `poolPlanes` of the input array
  (`array_eq`), for any contents `V` of the buffers at the region's entry.
-/
import proofs.«116441_j34720515620930_2_alg».proof.Proof.Gen.KernelIdeal.Frame
import proofs.«116441_j34720515620930_2_alg».proof.Proof.PlaneMax
import proofs.«116441_j34720515620930_2_alg».proof.Proof.ConcatRead
import Idealize.ShloMosaic.Lib.Pipeline.Value
import Idealize.ShloMosaic.Lib.ValueIdx
import Idealize.ShloMosaic.PureOps.Ideal.Laws

set_option maxRecDepth 16384

noncomputable section

namespace Cert.KernelIdeal.StencilRegion

open Cert.KernelIdeal Cert.KernelIdeal.Gen Cert.PlaneMax
open Idealize.ShloMosaic Idealize.ShloMosaic.TcCoe Idealize.ShloMosaic.ValueIdx Idealize.SL.Sem
open Idealize.ShloMosaic.Pipeline (Dat)

theorem zero3 : (![0, 0, 0] : Fin 3 → Nat) = fun _ => 0 := funext fun a => by fin_cases a <;> rfl

/-- The word the strips are filled with denotes zero. -/
theorem zero_word : (Scalar.ofBits (F := Ideal) .f32 0x00000000#32 : EReal) = 0 := Ideal.ofBits_zero_f32

/-- The plane and its six moved copies joined by `max`, over any plane `P` and fill value `z`: at a position, the nested
    maximum of the seven backward reads. -/
theorem joined_apply (z : EReal) (P : S512x512.Idx → EReal) (h w : Fin 512) :
    maximumf (F := Ideal) (φ := .f32)
      (maximumf
        (maximumf
          (maximumf P (concatenate S512x512 0 [⟨S1x512, broadcast S1x512 z⟩, ⟨S511x512, extractStridedSlice S511x512 ![0, 0] P slices_S512x512_o0_0_S511x512⟩] concatenates_S1x512_S511x512_S512x512_d0))
          (maximumf
            (concatenate S512x512 1 [⟨S512x1, broadcast S512x1 z⟩, ⟨S512x511, extractStridedSlice S512x511 ![0, 0] P slices_S512x512_o0_0_S512x511⟩] concatenates_S512x1_S512x511_S512x512_d1)
            (concatenate S512x512 1 [⟨S512x1, broadcast S512x1 z⟩, ⟨S512x511, extractStridedSlice S512x511 ![0, 0]
              (concatenate S512x512 0 [⟨S1x512, broadcast S1x512 z⟩, ⟨S511x512, extractStridedSlice S511x512 ![0, 0] P slices_S512x512_o0_0_S511x512⟩] concatenates_S1x512_S511x512_S512x512_d0)
              slices_S512x512_o0_0_S512x511⟩] concatenates_S512x1_S512x511_S512x512_d1)))
        (concatenate S512x512 0 [⟨S2x512, broadcast S2x512 z⟩, ⟨S510x512, extractStridedSlice S510x512 ![0, 0] P slices_S512x512_o0_0_S510x512⟩] concatenates_S2x512_S510x512_S512x512_d0))
      (maximumf
        (concatenate S512x512 1 [⟨S512x2, broadcast S512x2 z⟩, ⟨S512x510, extractStridedSlice S512x510 ![0, 0] P slices_S512x512_o0_0_S512x510⟩] concatenates_S512x2_S512x510_S512x512_d1)
        (concatenate S512x512 1 [⟨S512x2, broadcast S512x2 z⟩, ⟨S512x510, extractStridedSlice S512x510 ![0, 0]
          (concatenate S512x512 0 [⟨S2x512, broadcast S2x512 z⟩, ⟨S510x512, extractStridedSlice S510x512 ![0, 0] P slices_S512x512_o0_0_S510x512⟩] concatenates_S2x512_S510x512_S512x512_d0)
          slices_S512x512_o0_0_S512x510⟩] concatenates_S512x2_S512x510_S512x512_d1))
      (ix2 h w)
    = max (max (max (max (P (ix2 h w)) (back z (fun p q => P (ix2 p q)) 1 0 h w))
          (max (back z (fun p q => P (ix2 p q)) 0 1 h w) (back z (fun p q => P (ix2 p q)) 1 1 h w)))
        (back z (fun p q => P (ix2 p q)) 2 0 h w))
      (max (back z (fun p q => P (ix2 p q)) 0 2 h w) (back z (fun p q => P (ix2 p q)) 2 2 h w)) := by
  have d1 : ∀ p q, concatenate S512x512 0 [⟨S1x512, broadcast S1x512 z⟩, ⟨S511x512, extractStridedSlice S511x512 ![0, 0] P slices_S512x512_o0_0_S511x512⟩] concatenates_S1x512_S511x512_S512x512_d0 (ix2 p q)
      = down z 1 (fun p q => P (ix2 p q)) p q := fun p q => rows_joined_apply 1 511 rfl z P _ _ p q
  have d2 : ∀ p q, concatenate S512x512 0 [⟨S2x512, broadcast S2x512 z⟩, ⟨S510x512, extractStridedSlice S510x512 ![0, 0] P slices_S512x512_o0_0_S510x512⟩] concatenates_S2x512_S510x512_S512x512_d0 (ix2 p q)
      = down z 2 (fun p q => P (ix2 p q)) p q := fun p q => rows_joined_apply 2 510 rfl z P _ _ p q
  show max (max (max (max (P (ix2 h w)) _) (max _ _)) _) (max _ _) = _
  rw [d1 h w, d2 h w, cols_joined_apply 1 511 rfl z P _ _ h w, cols_joined_apply 2 510 rfl z P _ _ h w,
    cols_joined_apply 1 511 rfl z _ _ _ h w, cols_joined_apply 2 510 rfl z _ _ _ h w]
  simp only [d1, d2]
  rw [right_down, right_down, down_eq_back, down_eq_back, right_eq_back, right_eq_back]

/-- What the body stores, at a position of the output block: `pool` of the input plane. -/
theorem stored_apply (x0 : Vec Ideal S1x512x512 .f32) (y : S1x512x512.Idx) :
    k1_pay1 (F := Ideal) x0 y = pool (fun p q => x0 (ix3 (y 0) p q)) (y 1) (y 2) := by
  unfold k1_pay1
  refine (shapeCast_addUnit_apply (n := 2) ![512, 512] _ _ y).trans ?_
  have hj : (fun a : Fin 2 => y a.succ) = ix2 (y 1) (y 2) :=
    funext fun a => by match a with | ⟨0, _⟩ => rfl | ⟨1, _⟩ => rfl
  rw [hj]
  refine (joined_apply (Scalar.ofBits (F := Ideal) .f32 0x00000000#32) (shapeCast S512x512 x0 shapeCasts_S1x512x512_S512x512) (y 1) (y 2)).trans ?_
  have hP : (fun p q => shapeCast S512x512 x0 shapeCasts_S1x512x512_S512x512 (ix2 p q)) = fun p q => x0 (ix3 (y 0) p q) :=
    funext fun p => funext fun q => by
      refine (shapeCast_dropUnit_apply (n := 2) ![512, 512] x0 _ _).trans ?_
      refine congrArg x0 (funext fun a => Fin.ext ?_)
      match a with
      | ⟨0, _⟩ => show (0 : Nat) = (y 0).val; have h0 : (y 0).val < 1 := (y 0).isLt; omega
      | ⟨1, _⟩ => rfl
      | ⟨2, _⟩ => rfl
  rw [hP, zero_word]
  have h0 : shapeCast S512x512 x0 shapeCasts_S1x512x512_S512x512 (ix2 (y 1) (y 2)) = x0 (ix3 (y 0) (y 1) (y 2)) := congrFun (congrFun hP (y 1)) (y 2)
  rw [h0]
  rfl

variable (V : (c : Dev nD) → (b : Ref sig .tc) → Buf (Elt Ideal) ((c : Thread nD τ).loc b))

/-- The printed index maps over the grid: the input and the output block sit at the same image, at block 0 of the rows
    and of the columns. -/
theorem index_facts : ∀ t : Fin cfg1.N, win1_0.index t (0 : Fin 3) = win1_1.index t (0 : Fin 3)
    ∧ win1_0.index t (1 : Fin 3) = 0 ∧ win1_0.index t (2 : Fin 3) = 0
    ∧ win1_1.index t (1 : Fin 3) = 0 ∧ win1_1.index t (2 : Fin 3) = 0 :=
  (by decide +kernel : ∀ t : Fin grid1.N, _)

/-- Every image is some grid point's. -/
theorem index_onto : ∀ q0 : Fin 16, ∃ t : Fin cfg1.N, win1_1.index t = ![q0.val, 0, 0] :=
  (by decide +kernel : ∀ q0 : Fin 16, ∃ t : Fin grid1.N, win1_1.index t = ![q0.val, 0, 0])

/-- What point `t` writes back is block `t` of `poolPlanes` of the region's input array. -/
theorem written_eq (c : Dev nD) (t : Fin cfg1.N) :
    (dat1 V c).flushed 1 t = ((cfg1.win 1).blk t).view.read (Elt Ideal) (poolPlanes (V c main_v0)) := by
  show (cfg1.win 1).cut (grid1.coords t) ((dat1 V c).after 1 t) = _
  rw [after1_1]
  unfold out1_1
  rw [View.canon_unit_zero zero3]
  simp only [View.ld_unit_zero (S := S1x512x512) zero3]
  obtain ⟨e0, e1, e2, e3, e4⟩ := index_facts t
  funext y
  show k1_pay1 (F := Ideal) (iblk1 V c 0 t) y = poolPlanes (V c main_v0) (((cfg1.win 1).blk t).view.emb y)
  refine (stored_apply _ y).trans ?_
  unfold poolPlanes
  have hy0 : (y 0).val < 1 := (y 0).isLt
  have hy1 : (y 1).val < 512 := (y 1).isLt
  have hy2 : (y 2).val < 512 := (y 2).isLt
  have hplane : (fun p q => iblk1 V c 0 t (ix3 (y 0) p q))
      = fun p q => V c main_v0 (ix3 (((cfg1.win 1).blk t).view.emb y 0) p q) :=
    funext fun p => funext fun q => by
      show V c main_v0 (((cfg1.win 0).blk t).view.emb (ix3 (y 0) p q)) = V c main_v0 _
      refine congrArg _ (funext fun a => Fin.ext ?_)
      match a with
      | ⟨0, _⟩ => show win1_0.index t (0 : Fin 3) * 1 + 1 * (y 0).val = win1_1.index t (0 : Fin 3) * 1 + 1 * (y 0).val; omega
      | ⟨1, _⟩ => show win1_0.index t (1 : Fin 3) * 512 + 1 * p.val = p.val; omega
      | ⟨2, _⟩ => show win1_0.index t (2 : Fin 3) * 512 + 1 * q.val = q.val; omega
  rw [hplane]
  have hr : (((cfg1.win 1).blk t).view.emb y 1) = y 1 := Fin.ext (by
    show win1_1.index t (1 : Fin 3) * 512 + 1 * (y 1).val = (y 1).val; omega)
  have hc' : (((cfg1.win 1).blk t).view.emb y 2) = y 2 := Fin.ext (by
    show win1_1.index t (2 : Fin 3) * 512 + 1 * (y 2).val = (y 2).val; omega)
  rw [hr, hc']

/-- A position of the output array is in point `t`'s block iff each coordinate is in the block's range on its axis. -/
theorem mem_block (t : Fin cfg1.N) (i : S16x512x512.Idx) :
    i ∈ ((cfg1.win 1).blk t).view.set ↔ ∀ a : Fin 3, win1_1.index t a * S1x512x512.size a ≤ (i a).val
      ∧ (i a).val < win1_1.index t a * S1x512x512.size a + S1x512x512.size a := by
  show i ∈ ((View.whole main_v1).slice (win1_1.rect t)).set ↔ _
  rw [View.set_slice_whole, Rect.mem_set_unit]
  exact Iff.rfl

/-- The 16 written-back planes cover the output array. -/
theorem covered (i : S16x512x512.Idx) :
    ∃ t : Fin cfg1.N, (cfg1.win 1).flush t = true ∧ i ∈ ((cfg1.win 1).blk t).view.set := by
  have hi0 : (i 0).val < 16 := (i 0).isLt
  have hi1 : (i 1).val < 512 := (i 1).isLt
  have hi2 : (i 2).val < 512 := (i 2).isLt
  obtain ⟨t, ht⟩ := index_onto ⟨(i 0).val, hi0⟩
  have q0 : win1_1.index t (0 : Fin 3) = (i 0).val := congrFun ht 0
  have q1 : win1_1.index t (1 : Fin 3) = 0 := congrFun ht 1
  have q2 : win1_1.index t (2 : Fin 3) = 0 := congrFun ht 2
  refine ⟨t, flush1_1 t, ?_⟩
  rw [mem_block]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 512 ≤ (i 1).val ∧ (i 1).val < win1_1.index t (1 : Fin 3) * 512 + 512; omega
  | ⟨2, _⟩ => show win1_1.index t (2 : Fin 3) * 512 ≤ (i 2).val ∧ (i 2).val < win1_1.index t (2 : Fin 3) * 512 + 512; omega

/-- After the last grid point the output array is `poolPlanes` of the region's input array. -/
theorem array_eq (c : Dev nD) : (dat1 V c).arrAt 1 cfg1.N = poolPlanes (V c main_v0) :=
  (dat1 V c).arrAt_eq_of_cover 1 (poolPlanes (V c main_v0)) (fun t _ => written_eq V c t) covered

end Cert.KernelIdeal.StencilRegion

end
-- ==== Proof.KernelValue.lean ====
/-
  The idealized kernel's result as one function of the argument.

  The run leaves the result buffer at the host line's broadcast of region 1's output array, whose input array is region 0's
  output array, whose input array is the argument (KernelRun). Region 0's output array is the channel maximum of its input
  array and region 1's is `poolPlanes` of its input array, so the result is `poolPlanes (chanMax x)` of the argument `x`
  with a trailing axis of extent 1.
-/
import proofs.«116441_j34720515620930_2_alg».proof.Proof.KernelRun
import proofs.«116441_j34720515620930_2_alg».proof.Proof.ChanRegion
import proofs.«116441_j34720515620930_2_alg».proof.Proof.StencilRegion

set_option maxRecDepth 16384

noncomputable section

namespace Cert.KernelIdeal.Named

open Cert.KernelIdeal Cert.KernelIdeal.Gen Cert.PlaneMax
open Idealize.ShloMosaic Idealize.ShloMosaic.TcCoe Idealize.SL.Sem

variable (m : (ℓ : Loc nD τ sig) → Buf (Elt Ideal) ℓ) (ρ : Dev nD → PrngReg)

/-- The result buffer's contents after the run, as a function of the argument. -/
theorem value_eq (c : Dev nD) :
    (W3 m ρ c (Proc.devRef .tc main_v2) : S16x512x512x1.Idx → EReal)
      = broadcastInDim S16x512x512x1 ![0, 1, 2] bcast_S16x512x512_S16x512x512x1_0_1_2
          (poolPlanes (chanMax (m ((c.tc : Thread nD τ).loc main_arg0)))) := by
  rw [result_eq m ρ c, StencilRegion.array_eq (V1 m ρ) c, mid_eq m ρ c, ChanRegion.array_eq (V0 m ρ) c]

/-- Every weakly fair execution of the idealized kernel terminates, nothing faulting, with the result at
    `poolPlanes (chanMax x)` of the argument (a trailing unit axis added) and the argument unchanged. -/
theorem run_value : θ_run defs (onTc (τ := τ) (main (F := Ideal))) ⟨m, fun _ => 0, ρ⟩ (fun r => ∀ c : Dev nD,
      r.2.mem ((c.tc : Thread nD τ).loc main_v2)
        = broadcastInDim S16x512x512x1 ![0, 1, 2] bcast_S16x512x512_S16x512x512x1_0_1_2
            (poolPlanes (chanMax (m ((c.tc : Thread nD τ).loc main_arg0))))
      ∧ r.2.mem ((c.tc : Thread nD τ).loc main_arg0) = m ((c.tc : Thread nD τ).loc main_arg0)) :=
  (θ_run defs _ _).mono (fun r h c => ⟨(h c).1.trans (value_eq m ρ c), (h c).2⟩) (run_named (F := Ideal) m ρ)

end Cert.KernelIdeal.Named

end
-- ==== Proof.RefValue.lean ====
/-
  The reference computes `poolPlanes (chanMax x)`.

  The reference pads every image with a border of two zero rows and columns on each side (516 x 516 positions), takes the
  maximum over the channels from -infinity, rolls the padded planes by 1 and by 2 along the rows, the columns and both, joins
  the seven by `max` in the nesting of `PlaneMax.pool`, and cuts the border off.

  * In the padded planes a position inside the border's frame holds the channel maximum of the image two rows up and two
    columns left; a border position holds the maximum of 32 zeros from -infinity, which is zero (`padded_apply`).
  * A roll by `d` read at a row (column) at least `d` is the padded plane `d` rows up (columns left): the rows that wrap
    around are never read at the positions kept (`rows1_apply` … `diag2_apply`).
  * The kept positions are (2 + h, 2 + w): read `dh` rows up and `dw` columns left they are inside the frame exactly when
    `dh ≤ h` and `dw ≤ w`, so the read is `PlaneMax.back` of the image's channel maximum (`padded_back`).
-/
import proofs.«116441_j34720515620930_2_alg».proof.Proof.ReferenceRead
import proofs.«116441_j34720515620930_2_alg».proof.Proof.PlaneMax
import proofs.«116441_j34720515620930_2_alg».proof.Proof.ConcatRead
import Idealize.ShloMosaic.Lib.KernelVsHost
import Idealize.ShloMosaic.PureOps.Ideal.Laws

set_option maxRecDepth 16384

noncomputable section

namespace Cert.ReferenceIdeal.RefValue

open Cert.ReferenceIdeal Cert.ReferenceIdeal.Gen Cert.ReferenceIdeal.ReadP Cert.PlaneMax
open Idealize.ShloMosaic Idealize.ShloMosaic.ValueIdx

variable (x0 : (⟨S16x512x512x32, .f32⟩ : BufTy).Contents (Elt Ideal))

/-- The padding value, the integer zero converted, is zero. -/
theorem pad_value (i : S_.Idx) : val_main_call0_v0 (F := Ideal) i = (0 : EReal) := by
  show (((0#32 : BitVec 32).toInt : ℝ) : EReal) = 0
  simp

/-- The value the maximum over the channels starts from is the bottom element. -/
theorem start_value (i : S_.Idx) : val_main_cst (F := Ideal) i = (⊥ : EReal) := by
  show Ideal.ofBits .f32 0xFF800000#32 = ⊥
  simp [Ideal.ofBits, Ideal.ieee]

theorem hR : S16x516x516x32.Reduces [3] S16x516x516 := by decide

/-- The padded planes' channel maximum at a position: inside the frame the image's channel maximum two rows up and two
    columns left, zero on the border. -/
theorem padded_apply (b : Fin 16) (p q : Fin 516) :
    val_main_v1 (F := Ideal) x0 (ix3 b p q)
      = if hh : (2 ≤ p.val ∧ p.val < 514) ∧ (2 ≤ q.val ∧ q.val < 514) then
          chanMax x0 (ix3 b ⟨p.val - 2, by omega⟩ ⟨q.val - 2, by omega⟩)
        else 0 := by
  unfold val_main_v1
  rw [Host.reduce_eq_fold_single FloatOps.maximumf _ _ reducesTo_S16x516x516x32_S16x516x516_d3 hR h_S_ (ix3 b p q),
    start_value]
  show (Finset.univ : Finset (Fin 32)).fold max ⊥ (val_main_v0 (F := Ideal) x0 ∘ hR.lift (ix3 b p q)) = _
  by_cases hh : (2 ≤ p.val ∧ p.val < 514) ∧ (2 ≤ q.val ∧ q.val < 514)
  · rw [dif_pos hh]
    unfold chanMax
    refine congrArg (fun g => (Finset.univ : Finset (Fin 32)).fold max ⊥ g) (funext fun k => ?_)
    show val_main_v0 (F := Ideal) x0 (hR.lift (ix3 b p q) k) = _
    unfold val_main_v0
    refine pad_apply_of_inside _ _ _ x0 _ _ _ _ _ (fun a => ?_)
    match a with
    | ⟨0, _⟩ => show b.val = 0 + b.val * (0 + 1); omega
    | ⟨1, _⟩ => show p.val = 2 + (p.val - 2) * (0 + 1); omega
    | ⟨2, _⟩ => show q.val = 2 + (q.val - 2) * (0 + 1); omega
    | ⟨3, _⟩ => show k.val = 0 + k.val * (0 + 1); omega
  · rw [dif_neg hh]
    have hconst : (val_main_v0 (F := Ideal) x0 ∘ hR.lift (ix3 b p q)) = fun _ => (0 : EReal) := funext fun k => by
      show val_main_v0 (F := Ideal) x0 (hR.lift (ix3 b p q) k) = 0
      unfold val_main_v0
      rcases not_and_or.mp hh with h1 | h2
      · refine (pad_apply_of_not_inside _ _ _ x0 _ _ _ _ (1 : Fin 4) ?_).trans (pad_value _)
        intro hin
        apply h1
        have e1 : 2 ≤ p.val := hin.1
        have e2 : (p.val - 2) / (0 + 1) < 512 := hin.2.2
        omega
      · refine (pad_apply_of_not_inside _ _ _ x0 _ _ _ _ (2 : Fin 4) ?_).trans (pad_value _)
        intro hin
        apply h2
        have e1 : 2 ≤ q.val := hin.1
        have e2 : (q.val - 2) / (0 + 1) < 512 := hin.2.2
        omega
    rw [hconst]
    exact fold_max_const 0

/-! ## The rolled planes at a position past the wrapped part -/

theorem rows1_apply (b : Fin 16) (p q : Fin 516) (hp : 1 ≤ p.val) :
    val_main_v2 (F := Ideal) x0 (ix3 b p q) = val_main_v1 (F := Ideal) x0 (ix3 b ⟨p.val - 1, by omega⟩ q) := by
  unfold val_main_v2
  refine (rolled_rows_apply 1 515 rfl _ _ _ b p q hp).trans ?_
  rw [val_main_call1_v1_apply]
  exact congrArg _ (funext fun a => by match a with | ⟨0, _⟩ => rfl | ⟨1, _⟩ => rfl | ⟨2, _⟩ => rfl)

theorem cols1_apply (b : Fin 16) (p q : Fin 516) (hq : 1 ≤ q.val) :
    val_main_v3 (F := Ideal) x0 (ix3 b p q) = val_main_v1 (F := Ideal) x0 (ix3 b p ⟨q.val - 1, by omega⟩) := by
  unfold val_main_v3
  refine (rolled_cols_apply 1 515 rfl _ _ _ b p q hq).trans ?_
  rw [val_main_call2_v1_apply]
  exact congrArg _ (funext fun a => by match a with | ⟨0, _⟩ => rfl | ⟨1, _⟩ => rfl | ⟨2, _⟩ => rfl)

theorem diag1_apply (b : Fin 16) (p q : Fin 516) (hq : 1 ≤ q.val) :
    val_main_v4 (F := Ideal) x0 (ix3 b p q) = val_main_v2 (F := Ideal) x0 (ix3 b p ⟨q.val - 1, by omega⟩) := by
  unfold val_main_v4
  refine (rolled_cols_apply 1 515 rfl _ _ _ b p q hq).trans ?_
  rw [val_main_call3_v1_apply]
  exact congrArg _ (funext fun a => by match a with | ⟨0, _⟩ => rfl | ⟨1, _⟩ => rfl | ⟨2, _⟩ => rfl)

theorem rows2_apply (b : Fin 16) (p q : Fin 516) (hp : 2 ≤ p.val) :
    val_main_v8 (F := Ideal) x0 (ix3 b p q) = val_main_v1 (F := Ideal) x0 (ix3 b ⟨p.val - 2, by omega⟩ q) := by
  unfold val_main_v8
  refine (rolled_rows_apply 2 514 rfl _ _ _ b p q hp).trans ?_
  rw [val_main_call4_v1_apply]
  exact congrArg _ (funext fun a => by match a with | ⟨0, _⟩ => rfl | ⟨1, _⟩ => rfl | ⟨2, _⟩ => rfl)

theorem cols2_apply (b : Fin 16) (p q : Fin 516) (hq : 2 ≤ q.val) :
    val_main_v9 (F := Ideal) x0 (ix3 b p q) = val_main_v1 (F := Ideal) x0 (ix3 b p ⟨q.val - 2, by omega⟩) := by
  unfold val_main_v9
  refine (rolled_cols_apply 2 514 rfl _ _ _ b p q hq).trans ?_
  rw [val_main_call5_v1_apply]
  exact congrArg _ (funext fun a => by match a with | ⟨0, _⟩ => rfl | ⟨1, _⟩ => rfl | ⟨2, _⟩ => rfl)

theorem diag2_apply (b : Fin 16) (p q : Fin 516) (hq : 2 ≤ q.val) :
    val_main_v10 (F := Ideal) x0 (ix3 b p q) = val_main_v8 (F := Ideal) x0 (ix3 b p ⟨q.val - 2, by omega⟩) := by
  unfold val_main_v10
  refine (rolled_cols_apply 2 514 rfl _ _ _ b p q hq).trans ?_
  rw [val_main_call6_v1_apply]
  exact congrArg _ (funext fun a => by match a with | ⟨0, _⟩ => rfl | ⟨1, _⟩ => rfl | ⟨2, _⟩ => rfl)

/-- The padded plane of image `b` at the position `dh` rows up and `dw` columns left of the kept position (2 + h, 2 + w):
    the backward read of the image's channel maximum, zero off the image. -/
theorem padded_back (b : Fin 16) (h w : Fin 512) (dh dw : Nat) (hdh : dh ≤ 2) (hdw : dw ≤ 2) (p q : Fin 516)
    (hp : p.val = 2 + h.val - dh) (hq : q.val = 2 + w.val - dw) :
    val_main_v1 (F := Ideal) x0 (ix3 b p q) = back 0 (fun p q => chanMax x0 (ix3 b p q)) dh dw h w := by
  have hh : h.val < 512 := h.isLt
  have hw : w.val < 512 := w.isLt
  rw [padded_apply]
  unfold back
  by_cases h1 : dh ≤ h.val
  · by_cases h2 : dw ≤ w.val
    · rw [dif_pos ⟨⟨by omega, by omega⟩, ⟨by omega, by omega⟩⟩, dif_pos h1, dif_pos h2]
      have ep : (⟨p.val - 2, by omega⟩ : Fin 512) = ⟨h.val - dh, Nat.lt_of_le_of_lt (Nat.sub_le _ _) h.isLt⟩ := Fin.ext (by show p.val - 2 = h.val - dh; omega)
      have eq' : (⟨q.val - 2, by omega⟩ : Fin 512) = ⟨w.val - dw, Nat.lt_of_le_of_lt (Nat.sub_le _ _) w.isLt⟩ := Fin.ext (by show q.val - 2 = w.val - dw; omega)
      rw [ep, eq']
    · rw [dif_neg (fun hc => h2 (by omega)), dif_pos h1, dif_neg h2]
  · rw [dif_neg (fun hc => h1 (by omega)), dif_neg h1]

end Cert.ReferenceIdeal.RefValue

end
-- ==== Proof.RefResult.lean ====
/-
  The reference's result is `poolPlanes (chanMax x)` with a trailing unit axis.

  At a kept position (2 + h, 2 + w) of the padded planes the seven joined values are the padded channel maximum read 0, 1
  or 2 rows up and columns left (the rolled planes past their wrapped parts, RefValue), and each such read is the backward
  read `PlaneMax.back` of the image's channel maximum (`RefValue.padded_back`); the nesting is `PlaneMax.pool`'s.
-/
import proofs.«116441_j34720515620930_2_alg».proof.Proof.RefValue

set_option maxRecDepth 16384

noncomputable section

namespace Cert.ReferenceIdeal.RefValue

open Cert.ReferenceIdeal Cert.ReferenceIdeal.Gen Cert.ReferenceIdeal.ReadP Cert.PlaneMax
open Idealize.ShloMosaic Idealize.ShloMosaic.ValueIdx

variable (x0 : (⟨S16x512x512x32, .f32⟩ : BufTy).Contents (Elt Ideal))

/-- A read zero rows up and zero columns left is the plane itself. -/
theorem back_self {α : Type} (z : α) (f : Fin 512 → Fin 512 → α) (h w : Fin 512) : back z f 0 0 h w = f h w := by
  unfold back
  rw [dif_pos (Nat.zero_le _), dif_pos (Nat.zero_le _)]
  rfl

/-- `poolPlanes` at a position given by its coordinates. -/
theorem poolPlanes_apply (a : (⟨3, ![16, 512, 512]⟩ : Shape).Idx → EReal) (b : Fin 16) (h w : Fin 512) :
    poolPlanes a (ix3 b h w) = Cert.PlaneMax.pool (fun p q => a (ix3 b p q)) h w := rfl

/-- The reference's result before the trailing unit axis is added: `poolPlanes` of the channel maximum. -/
theorem cropped_eq : val_main_v14 (F := Ideal) x0 = poolPlanes (chanMax x0) := by
  funext j
  obtain ⟨b, h, w, rfl⟩ : ∃ (b : Fin 16) (h w : Fin 512), j = ix3 b h w := ⟨j 0, j 1, j 2, eq_ix3 j⟩
  have hh : h.val < 512 := h.isLt
  have hw : w.val < 512 := w.isLt
  rw [val_main_v14_apply]
  have hJ : idx_main_v14 (ix3 b h w) = ix3 b (⟨2 + h.val, by omega⟩ : Fin 516) (⟨2 + w.val, by omega⟩ : Fin 516) :=
    funext fun a => by match a with | ⟨0, _⟩ => rfl | ⟨1, _⟩ => rfl | ⟨2, _⟩ => rfl
  rw [hJ]
  rw [val_main_v13_apply, val_main_v11_apply, val_main_v12_apply, val_main_v7_apply, val_main_v5_apply, val_main_v6_apply]
  simp only [Ideal.maximumf_def]
  rw [rows1_apply x0 b _ _ (by show 1 ≤ 2 + h.val; omega), cols1_apply x0 b _ _ (by show 1 ≤ 2 + w.val; omega),
    diag1_apply x0 b _ _ (by show 1 ≤ 2 + w.val; omega), rows1_apply x0 b _ _ (by show 1 ≤ 2 + h.val; omega),
    rows2_apply x0 b _ _ (by show 2 ≤ 2 + h.val; omega), cols2_apply x0 b _ _ (by show 2 ≤ 2 + w.val; omega),
    diag2_apply x0 b _ _ (by show 2 ≤ 2 + w.val; omega), rows2_apply x0 b _ _ (by show 2 ≤ 2 + h.val; omega)]
  rw [padded_back x0 b h w 0 0 (by omega) (by omega) _ _ (by show 2 + h.val = 2 + h.val - 0; omega) (by show 2 + w.val = 2 + w.val - 0; omega),
    padded_back x0 b h w 1 0 (by omega) (by omega) _ _ (by show 2 + h.val - 1 = 2 + h.val - 1; omega) (by show 2 + w.val = 2 + w.val - 0; omega),
    padded_back x0 b h w 0 1 (by omega) (by omega) _ _ (by show 2 + h.val = 2 + h.val - 0; omega) (by show 2 + w.val - 1 = 2 + w.val - 1; omega),
    padded_back x0 b h w 1 1 (by omega) (by omega) _ _ (by show 2 + h.val - 1 = 2 + h.val - 1; omega) (by show 2 + w.val - 1 = 2 + w.val - 1; omega),
    padded_back x0 b h w 2 0 (by omega) (by omega) _ _ (by show 2 + h.val - 2 = 2 + h.val - 2; omega) (by show 2 + w.val = 2 + w.val - 0; omega),
    padded_back x0 b h w 0 2 (by omega) (by omega) _ _ (by show 2 + h.val = 2 + h.val - 0; omega) (by show 2 + w.val - 2 = 2 + w.val - 2; omega),
    padded_back x0 b h w 2 2 (by omega) (by omega) _ _ (by show 2 + h.val - 2 = 2 + h.val - 2; omega) (by show 2 + w.val - 2 = 2 + w.val - 2; omega)]
  rw [poolPlanes_apply, back_self]
  unfold Cert.PlaneMax.pool
  rfl

/-- The reference's result: `poolPlanes (chanMax x)` with a trailing axis of extent 1. -/
theorem result_eq : val_main_v15 (F := Ideal) x0
    = broadcastInDim S16x512x512x1 ![0, 1, 2] bcast_S16x512x512_S16x512x512x1_0_1_2 (poolPlanes (chanMax x0)) := by
  unfold val_main_v15
  rw [cropped_eq]

end Cert.ReferenceIdeal.RefValue

end
-- ==== Proof.lean ====
/-
  The certificate of a two-stage pooling kernel against its jnp reference, over the extended reals.

  Both programs take a batch of 16 images of 512 x 512 positions with 32 channels. Each keeps, at every position, the largest
  of the 32 channel entries, and then the largest of seven values of the resulting plane: the position's own and the ones 1
  or 2 rows up, 1 or 2 columns left, and 1 or 2 steps up the diagonal, a neighbour off the plane counting as zero.

  The kernel does the two stages in two pipelined regions (the channel maximum tile by tile, then the seven-way maximum
  plane by plane, the moved planes built by joining strips of zeros in front of slices). The reference pads the images with
  a border of two zeros, takes the channel maximum of the padded images (zero on the border), rolls the padded planes, joins
  them by `max` and cuts the border off; at the kept positions a roll never reads its wrapped part, and a read off the image
  lands on the border. Both nest the seven values in the same order, so the two results are the same function
  `PlaneMax.poolPlanes (PlaneMax.chanMax x)` of the argument, term for term: no law of `max` joins the two sides, and the
  finiteness of the input is not used.

  The three frames: the two kernels' are the frame certificates over their segments; the reference's is its run with the
  result dropped. The idealization rewrote nothing, so `preserves` has no conjunct to prove.
-/
import proofs.«116441_j34720515620930_2_alg».proof.Defs
import proofs.«116441_j34720515620930_2_alg».proof.Proof.Gen.Kernel
import proofs.«116441_j34720515620930_2_alg».proof.Proof.Gen.Kernel.Skeleton
import proofs.«116441_j34720515620930_2_alg».proof.Proof.Gen.Kernel.Launch
import proofs.«116441_j34720515620930_2_alg».proof.Proof.Gen.Kernel.Points
import proofs.«116441_j34720515620930_2_alg».proof.Proof.Gen.Kernel.Frame
import proofs.«116441_j34720515620930_2_alg».proof.Proof.Gen.KernelIdeal
import proofs.«116441_j34720515620930_2_alg».proof.Proof.Gen.KernelIdeal.Skeleton
import proofs.«116441_j34720515620930_2_alg».proof.Proof.Gen.KernelIdeal.Launch
import proofs.«116441_j34720515620930_2_alg».proof.Proof.Gen.KernelIdeal.Points
import proofs.«116441_j34720515620930_2_alg».proof.Proof.Gen.KernelIdeal.Frame
import proofs.«116441_j34720515620930_2_alg».proof.Proof.Gen.ReferenceIdeal
import proofs.«116441_j34720515620930_2_alg».proof.Proof.Gen.Pre_finite_inputs
import proofs.«116441_j34720515620930_2_alg».proof.Proof.KernelValue
import proofs.«116441_j34720515620930_2_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

/-- From memories that agree on the argument both idealized programs end with the result at
    `poolPlanes (chanMax x)` of the argument, a trailing unit axis added. -/
theorem algebraic : Cert.algebraic_KernelIdeal_ReferenceIdeal := by
  intro m ρ m' ρ' _ hagree
  refine ⟨_, Cert.KernelIdeal.Named.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v15_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
